-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def frame_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    frame_Kernel (hKernel := hKernel)
    ∧ frame_KernelIdeal (hKernelIdeal := hKernelIdeal)
    ∧ frame_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x8192 : Shape := ⟨2, ![4096, 8192]⟩
abbrev S8192x8192 : Shape := ⟨2, ![8192, 8192]⟩
abbrev S1024x2048 : Shape := ⟨2, ![1024, 2048]⟩
abbrev S1024x1024 : Shape := ⟨2, ![1024, 1024]⟩
abbrev S_ : Shape := ⟨0, ![]⟩

abbrev nBuf : Space → Nat
  | .hbm => 9
  | .vmem => 7
  | .smem => 0
  | _ => 0

abbrev bufTy : (tb : Table) → Fin (tcTables nBuf tb) → BufTy
  | .hbm, ⟨0, _⟩ => ⟨S4096x8192, .i1⟩
  | .hbm, ⟨1, _⟩ => ⟨S8192x8192, .i1⟩
  | .hbm, ⟨2, _⟩ => ⟨S4096x8192, .i32⟩
  | .hbm, ⟨3, _⟩ => ⟨S8192x8192, .i32⟩
  | .hbm, ⟨4, _⟩ => ⟨S4096x8192, .i32⟩
  | .hbm, ⟨5, _⟩ => ⟨S_, .i32⟩
  | .hbm, ⟨6, _⟩ => ⟨S4096x8192, .i32⟩
  | .hbm, ⟨7, _⟩ => ⟨S4096x8192, .i1⟩
  | .hbm, ⟨8, _⟩ => ⟨S4096x8192, .i1⟩
  | .local _ .vmem, ⟨0, _⟩ => ⟨S1024x2048, .i32⟩
  | .local _ .vmem, ⟨1, _⟩ => ⟨S1024x2048, .i32⟩
  | .local _ .vmem, ⟨2, _⟩ => ⟨S1024x2048, .i32⟩
  | .local _ .vmem, ⟨3, _⟩ => ⟨S1024x2048, .i32⟩
  | .local _ .vmem, ⟨4, _⟩ => ⟨S1024x1024, .i32⟩
  | .local _ .vmem, ⟨5, _⟩ => ⟨S1024x1024, .i32⟩
  | .local _ .vmem, ⟨6, _⟩ => ⟨S1024x1024, .f32⟩
  | _, _ => ⟨S4096x8192, .i1⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 4], ![false, false, false]⟩

def k0_cond2 (i : grid0.Coords) : BitVec 1 :=
  let arg2 : BitVec 32 := BitVec.ofNat 32 (i 2).val
  let c3_i32 : BitVec 32 := 3#32
  let v19 : BitVec 1 := Scalar.cmpi .eq arg2 c3_i32
  let v20 : BitVec 32 := Scalar.extui v19
  let c0_i32_10 : BitVec 32 := 0#32
  let v21 : BitVec 1 := Scalar.cmpi .ne v20 c0_i32_10
  v21

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  natLt_1_32 : 1 < 32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  bcast_S_S4096x8192 : S_.BroadcastsInDim S4096x8192 (![] : Fin 0 → Fin S4096x8192.rank)
  dot_S1024x2048_S1024x2048_S1024x1024_1_1_0_0_n_n_wf : DotDims.WF S1024x2048 S1024x2048 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S4096x8192.size a
  hwx0_0 : ∀ i : grid0.Coords, EltTy.bits .i32 = 32 ∨ (Rect.block (s := S4096x8192) S1024x2048.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S8192x8192.size a
  hwx0_1 : ∀ i : grid0.Coords, EltTy.bits .i32 = 32 ∨ (Rect.block (s := S8192x8192) S1024x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x8192.size a
  hwx0_2 : ∀ i : grid0.Coords, EltTy.bits .i32 = 32 ∨ (Rect.block (s := S4096x8192) S1024x1024.size (cc0_transform_2 i) (hinb0_2 i)).WholeWords (EltTy.packing .i32)

variable [Facts₀]

def dot_S1024x2048_S1024x2048_S1024x1024_1_1_0_0_n_n : DotDims S1024x2048 S1024x2048 S1024x1024 where
  lhsContracting := [1]
  rhsContracting := [1]
  lhsNonContracting := [0]
  rhsNonContracting := [0]
  lhsBatch := []
  rhsBatch := []
  wf := dot_S1024x2048_S1024x2048_S1024x1024_1_1_0_0_n_n_wf

abbrev win0_0 : Pipeline.Window sig grid0 :=
  Pipeline.Window.ofSpec (Memref.whole main_v0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x8192 : Shape := ⟨2, ![4096, 8192]⟩
abbrev S8192x8192 : Shape := ⟨2, ![8192, 8192]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x8192, .i1⟩
  | .hbm, ⟨1, _⟩ => ⟨S8192x8192, .i1⟩
  | .hbm, ⟨2, _⟩ => ⟨S4096x8192, .f32⟩
  | .hbm, ⟨3, _⟩ => ⟨S8192x8192, .i1⟩
  | .hbm, ⟨4, _⟩ => ⟨S8192x8192, .f32⟩
  | .hbm, ⟨5, _⟩ => ⟨S4096x8192, .f32⟩
  | .hbm, ⟨6, _⟩ => ⟨S_, .f32⟩
  | .hbm, ⟨7, _⟩ => ⟨S4096x8192, .f32⟩
  | .hbm, ⟨8, _⟩ => ⟨S4096x8192, .i1⟩
  | _, _ => ⟨S4096x8192, .i1⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  transposes_S8192x8192_S8192x8192_1_0 : S8192x8192.Transposes [1, 0] S8192x8192
  bcast_S_S4096x8192 : S_.BroadcastsInDim S4096x8192 (![] : Fin 0 → Fin S4096x8192.rank)
  dot_S4096x8192_S8192x8192_S4096x8192_1_0_0_1_n_n_wf : DotDims.WF S4096x8192 S8192x8192 S4096x8192 [1] [0] [0] [1] [] []

variable [Facts₀]

def dot_S4096x8192_S8192x8192_S4096x8192_1_0_0_1_n_n : DotDims S4096x8192 S8192x8192 S4096x8192 where
  lhsContracting := [1]
  rhsContracting := [0]
  lhsNonContracting := [0]
  rhsNonContracting := [1]
  lhsBatch := []
  rhsBatch := []
  wf := dot_S4096x8192_S8192x8192_S4096x8192_1_0_0_1_n_n_wf

class Facts : Prop extends Facts₀ where

variable [Facts]
-- ==== Proof.RefRun.lean ====
/-
  The reference program's run, read back.  Its @main is seven host operations in a straight line: x read as floats,
  w transposed and read as floats, their matrix product contracting x's columns with the transposed w's rows, the
  zero, its spread over the result's shape, and the ordered comparison "product > zero".  Every weakly fair execution
  terminates with the result buffer at the composition of these operations applied to the two argument arrays as
  launched, and the arguments unchanged.
-/
import proofs.«165320_j51342039056576_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's seven operations, in order. -/
abbrev ops : List (HloOp τ sig (Elt F)) :=
  [ unary main_arg0 main_v0 (uitofp .f32 : (⟨S4096x8192, .i1⟩ : BufTy).Contents (Elt F) → (⟨S4096x8192, .f32⟩ : BufTy).Contents (Elt F)),
    unary main_arg1 main_v1 ((transpose S8192x8192 [1, 0] · transposes_S8192x8192_S8192x8192_1_0) : (⟨S8192x8192, .i1⟩ : BufTy).Contents (Elt F) → (⟨S8192x8192, .i1⟩ : BufTy).Contents (Elt F)),
    unary main_v1 main_v2 (uitofp .f32 : (⟨S8192x8192, .i1⟩ : BufTy).Contents (Elt F) → (⟨S8192x8192, .f32⟩ : BufTy).Contents (Elt F)),
    binary main_v0 main_v2 main_v3 ((fun l r => Host.dotGeneral dot_S4096x8192_S8192x8192_S4096x8192_1_0_0_1_n_n none l r) : (⟨S4096x8192, .f32⟩ : BufTy).Contents (Elt F) → (⟨S8192x8192, .f32⟩ : BufTy).Contents (Elt F) → (⟨S4096x8192, .f32⟩ : BufTy).Contents (Elt F)),
    nullary main_cst (constant S_ .f32 0x00000000#32),
    unary main_cst main_v4 (broadcastInDim S4096x8192 ![] bcast_S_S4096x8192 : (⟨S_, .f32⟩ : BufTy).Contents (Elt F) → (⟨S4096x8192, .f32⟩ : BufTy).Contents (Elt F)),
    binary main_v3 main_v4 main_v5 (cmpf .ogt : (⟨S4096x8192, .f32⟩ : BufTy).Contents (Elt F) → (⟨S4096x8192, .f32⟩ : BufTy).Contents (Elt F) → (⟨S4096x8192, .i1⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., unary_bufs_sub .., unary_bufs_sub .., binary_bufs_sub .., nullary_bufs_sub .., unary_bufs_sub .., binary_bufs_sub ..⟩

/-- The matrix product of the two arguments read as floats: x times the transpose of w. -/
def product (x0 : (⟨S4096x8192, .i1⟩ : BufTy).Contents (Elt F)) (x1 : (⟨S8192x8192, .i1⟩ : BufTy).Contents (Elt F)) :
    (⟨S4096x8192, .f32⟩ : BufTy).Contents (Elt F) :=
  Host.dotGeneral dot_S4096x8192_S8192x8192_S4096x8192_1_0_0_1_n_n none (uitofp .f32 x0)
    (uitofp .f32 (transpose S8192x8192 [1, 0] x1 transposes_S8192x8192_S8192x8192_1_0))

/-- The zero, spread over the result's shape. -/
def zeros : (⟨S4096x8192, .f32⟩ : BufTy).Contents (Elt F) :=
  broadcastInDim S4096x8192 ![] bcast_S_S4096x8192 (constant S_ .f32 0x00000000#32)

/-- The result: where the product is greater than zero. -/
def result (x0 : (⟨S4096x8192, .i1⟩ : BufTy).Contents (Elt F)) (x1 : (⟨S8192x8192, .i1⟩ : BufTy).Contents (Elt F)) :
    (⟨S4096x8192, .i1⟩ : BufTy).Contents (Elt F) :=
  cmpf (F := F) .ogt (product x0 x1) zeros

/-- On every device, from any memory with zero counters: every weakly fair execution of @main terminates with the
    result at `result` of the arguments as launched and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v5) = result (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v5).trans (by after_results; rfl),
      (h c main_arg0).trans (by after_results),
      (h c main_arg1).trans (by after_results)⟩)
    (run_seq scopedRefs_eq scopedSems_eq defs main (fun _ => ops) main_eq (fun _ => ops_sub) m ρ)

end Cert.ReferenceIdeal.RefRun

end
-- ==== Proof.CountSpec.lean ====
/-
  The specification both programs meet.  For one-bit arrays x : [4096, 8192] and w : [8192, 8192] the result at
  (a, b) is the one-bit word saying whether the number of columns j with x(a, j) = 1 and w(b, j) = 1 is positive:
  the count is the sum over j < 8192 of the product of the two bits read as reals (each 0 or 1), and the result is
  the ordered comparison "count > 0".

  The count is stated over natural-number coordinates, with a bit read as 0 outside its array, so that a partial
  count over the first n columns is a sum over Finset.range n: the count over the first n + 2048 columns is the
  count over the first n plus the sum over the next 2048 (Finset.sum_range_add), which is the step an accumulation
  over column tiles of width 2048 takes.  No finiteness is used: only 0 + s = s and the splitting of a range.

  Also here: the two facts about one-bit words that the word-level conversions of the two programs come down to.
  A one-bit word b widened to 32 bits and compared "not equal to zero" is b again; and that comparison's result,
  widened to 32 bits and read as a SIGNED integer, is the real number b read as an UNSIGNED integer (0 or 1: the
  sign bit of a 32-bit word holding 0 or 1 is clear).
-/
import Idealize.ShloMosaic.PureOps.Ideal
import Idealize.ShloMosaic.PureOps.Ideal.Laws
import Idealize.ShloMosaic.Lib.ValueIdx

noncomputable section

open scoped BigOperators

namespace Cert.CountSpec

open Idealize.ShloMosaic Idealize.ShloMosaic.ValueIdx

/-- The shape of x, [4096, 8192], and of w, [8192, 8192]. -/
abbrev SX : Shape := ⟨2, ![4096, 8192]⟩
abbrev SW : Shape := ⟨2, ![8192, 8192]⟩

/-- A one-bit word read as a real number: 0 or 1. -/
def bitR (b : BitVec 1) : EReal := ((b.toNat : ℝ) : EReal)

/-- x's bit at row a, column j, as a real; 0 outside the array. -/
def xbit (x : SX.Idx → BitVec 1) (a j : ℕ) : EReal :=
  if h : a < 4096 ∧ j < 8192 then bitR (x (ix2 ⟨a, h.1⟩ ⟨j, h.2⟩)) else 0

/-- w's bit at row b, column j, as a real; 0 outside the array. -/
def wbit (w : SW.Idx → BitVec 1) (b j : ℕ) : EReal :=
  if h : b < 8192 ∧ j < 8192 then bitR (w (ix2 ⟨b, h.1⟩ ⟨j, h.2⟩)) else 0

/-- The number of columns j < n at which row a of x and row b of w both hold 1. -/
def count (x : SX.Idx → BitVec 1) (w : SW.Idx → BitVec 1) (a b n : ℕ) : EReal :=
  ∑ j ∈ Finset.range n, xbit x a j * wbit w b j

/-- The count over the first n + k columns is the count over the first n plus the sum over the next k. -/
theorem count_add (x : SX.Idx → BitVec 1) (w : SW.Idx → BitVec 1) (a b n k : ℕ) :
    count x w a b (n + k) = count x w a b n + ∑ r ∈ Finset.range k, xbit x a (n + r) * wbit w b (n + r) := by
  unfold count
  exact Finset.sum_range_add _ n k

/-- The result word: is the full count positive? -/
def spec (x : SX.Idx → BitVec 1) (w : SW.Idx → BitVec 1) : SX.Idx → BitVec 1 :=
  fun i => Ideal.cmp .ogt (count x w (i 0).val (i 1).val 8192) (Ideal.ofBits .f32 0x00000000#32)

/-- A one-bit word widened to 32 bits is nonzero exactly when it is 1. -/
theorem ne_zero_widen (b : BitVec 1) : IntOp.cmpi .ne (b.setWidth 32) 0#32 = b := by
  revert b; decide

/-- The word "v ≠ 0" of a widened one-bit word v, widened to 32 bits and read as a signed integer, is the bit as a
    real. -/
theorem signed_of_ne_zero_widen (b : BitVec 1) :
    ((((IntOp.cmpi .ne (b.setWidth 32) 0#32).setWidth 32).toInt : ℝ) : EReal) = bitR b := by
  rw [ne_zero_widen]
  unfold bitR
  revert b
  intro b
  have : ((b.setWidth 32).toInt : ℝ) = ((b.toNat : ℕ) : ℝ) := by
    have h : (b.setWidth 32).toInt = (b.toNat : ℤ) := by revert b; decide
    rw [h]; simp
  rw [this]

end Cert.CountSpec

end
-- ==== Proof.RefValue.lean ====
/-
  The reference computes the specification.  At the exact instance a one-bit word read as a float is the real 0 or
  1; the host's matrix product at (a, b) is the plain sum over the contracted axis of x(a, j) times the transposed
  w at (j, b), that is w(b, j); so the product is the count of columns where both rows hold 1, and the comparison
  with the zero word is the specification's result word.
-/
import proofs.«165320_j51342039056576_2_alg».proof.Proof.RefRun
import proofs.«165320_j51342039056576_2_alg».proof.Proof.CountSpec
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.RefRun Cert.CountSpec
open Idealize.ShloMosaic Idealize.ShloMosaic.TcCoe Idealize.ShloMosaic.ValueIdx

/-- The product's operand indices at output index i and contraction index q, coordinate by coordinate: the left
    operand is read at (i₀, q), the right at (q, i₁). -/
theorem lhs0 (i : S4096x8192.Idx) (q : dot_S4096x8192_S8192x8192_S4096x8192_1_0_0_1_n_n.contr.Idx) : (dot_S4096x8192_S8192x8192_S4096x8192_1_0_0_1_n_n.lhsIdx i q 0).val = (i 0).val := by
  unfold DotDims.lhsIdx
  rw [dif_neg (show ¬(0 : Fin S4096x8192.rank) ∈ dot_S4096x8192_S8192x8192_S4096x8192_1_0_0_1_n_n.lhsBatch by decide), dif_pos (show (0 : Fin S4096x8192.rank) ∈ dot_S4096x8192_S8192x8192_S4096x8192_1_0_0_1_n_n.lhsNonContracting by decide)]
  rfl
theorem lhs1 (i : S4096x8192.Idx) (q : dot_S4096x8192_S8192x8192_S4096x8192_1_0_0_1_n_n.contr.Idx) : (dot_S4096x8192_S8192x8192_S4096x8192_1_0_0_1_n_n.lhsIdx i q 1).val = (q ⟨0, by decide⟩).val :=
  dot_S4096x8192_S8192x8192_S4096x8192_1_0_0_1_n_n.lhsIdx_val_of_single rfl i q
theorem rhs0 (i : S4096x8192.Idx) (q : dot_S4096x8192_S8192x8192_S4096x8192_1_0_0_1_n_n.contr.Idx) : (dot_S4096x8192_S8192x8192_S4096x8192_1_0_0_1_n_n.rhsIdx i q 0).val = (q ⟨0, by decide⟩).val :=
  dot_S4096x8192_S8192x8192_S4096x8192_1_0_0_1_n_n.rhsIdx_val_of_single rfl i q
theorem rhs1 (i : S4096x8192.Idx) (q : dot_S4096x8192_S8192x8192_S4096x8192_1_0_0_1_n_n.contr.Idx) : (dot_S4096x8192_S8192x8192_S4096x8192_1_0_0_1_n_n.rhsIdx i q 1).val = (i 1).val := by
  unfold DotDims.rhsIdx
  rw [dif_neg (show ¬(1 : Fin S8192x8192.rank) ∈ dot_S4096x8192_S8192x8192_S4096x8192_1_0_0_1_n_n.rhsBatch by decide), dif_pos (show (1 : Fin S8192x8192.rank) ∈ dot_S4096x8192_S8192x8192_S4096x8192_1_0_0_1_n_n.rhsNonContracting by decide)]
  rfl

/-- The transposed array at (j, b) is the array at (b, j). -/
abbrev swap (i : S8192x8192.Idx) : S8192x8192.Idx := fun a => match a with
  | ⟨0, _⟩ => ⟨(i 1).val, (i 1).isLt⟩
  | ⟨1, _⟩ => ⟨(i 0).val, (i 0).isLt⟩

/-- The product at (a, b) is the full count of row a of x against row b of w. -/
theorem product_apply (x0 : (⟨S4096x8192, .i1⟩ : BufTy).Contents (Elt Ideal)) (x1 : (⟨S8192x8192, .i1⟩ : BufTy).Contents (Elt Ideal))
    (i : S4096x8192.Idx) :
    product (F := Ideal) x0 x1 i = CountSpec.count x0 x1 (i 0).val (i 1).val 8192 := by
  unfold product
  simp only [Host.dotGeneral]
  rw [Ideal.dotGeneral_apply, ← Equiv.sum_comp (contrEquiv1 dot_S4096x8192_S8192x8192_S4096x8192_1_0_0_1_n_n 8192 rfl rfl).symm]
  unfold CountSpec.count
  rw [← Fin.sum_univ_eq_sum_range (fun j => xbit x0 (i 0).val j * wbit x1 (i 1).val j) 8192]
  refine Finset.sum_congr rfl fun k _ => ?_
  have hk := contrEquiv1_symm_val dot_S4096x8192_S8192x8192_S4096x8192_1_0_0_1_n_n 8192 rfl rfl k
  have hi0 : (i 0).val < 4096 := (i 0).isLt
  have hi1 : (i 1).val < 8192 := (i 1).isLt
  have el : dot_S4096x8192_S8192x8192_S4096x8192_1_0_0_1_n_n.lhsIdx i ((contrEquiv1 dot_S4096x8192_S8192x8192_S4096x8192_1_0_0_1_n_n 8192 rfl rfl).symm k) = ix2 ⟨(i 0).val, hi0⟩ ⟨k.val, k.isLt⟩ :=
    funext fun a => Fin.ext (by
      match a with
      | ⟨0, _⟩ => exact lhs0 i ((contrEquiv1 dot_S4096x8192_S8192x8192_S4096x8192_1_0_0_1_n_n 8192 rfl rfl).symm k)
      | ⟨1, _⟩ => exact (lhs1 i ((contrEquiv1 dot_S4096x8192_S8192x8192_S4096x8192_1_0_0_1_n_n 8192 rfl rfl).symm k)).trans hk)
  have er : swap (dot_S4096x8192_S8192x8192_S4096x8192_1_0_0_1_n_n.rhsIdx i ((contrEquiv1 dot_S4096x8192_S8192x8192_S4096x8192_1_0_0_1_n_n 8192 rfl rfl).symm k)) = ix2 ⟨(i 1).val, hi1⟩ ⟨k.val, k.isLt⟩ :=
    funext fun a => Fin.ext (by
      match a with
      | ⟨0, _⟩ => exact rhs1 i ((contrEquiv1 dot_S4096x8192_S8192x8192_S4096x8192_1_0_0_1_n_n 8192 rfl rfl).symm k)
      | ⟨1, _⟩ => exact (rhs0 i ((contrEquiv1 dot_S4096x8192_S8192x8192_S4096x8192_1_0_0_1_n_n 8192 rfl rfl).symm k)).trans hk)
  unfold xbit wbit
  rw [dif_pos ⟨hi0, k.isLt⟩, dif_pos ⟨hi1, k.isLt⟩, ← el, ← er]
  have et : transpose S8192x8192 [1, 0] x1 transposes_S8192x8192_S8192x8192_1_0 (dot_S4096x8192_S8192x8192_S4096x8192_1_0_0_1_n_n.rhsIdx i ((contrEquiv1 dot_S4096x8192_S8192x8192_S4096x8192_1_0_0_1_n_n 8192 rfl rfl).symm k))
      = x1 (swap (dot_S4096x8192_S8192x8192_S4096x8192_1_0_0_1_n_n.rhsIdx i ((contrEquiv1 dot_S4096x8192_S8192x8192_S4096x8192_1_0_0_1_n_n 8192 rfl rfl).symm k))) :=
    transpose_apply [1, 0] x1 transposes_S8192x8192_S8192x8192_1_0 _ (swap _) (fun b => match b with
      | ⟨0, _⟩ => rfl
      | ⟨1, _⟩ => rfl)
  show FloatOps.uitofp .f32 (x0 _) * FloatOps.uitofp .f32 (transpose S8192x8192 [1, 0] x1 transposes_S8192x8192_S8192x8192_1_0 _) = _
  rw [et]
  rfl

/-- The zero spread over the result's shape reads the zero word everywhere. -/
theorem zeros_apply (i : S4096x8192.Idx) : zeros (F := Ideal) i = Ideal.ofBits .f32 0x00000000#32 := by
  unfold zeros
  exact broadcastInDim_apply _ bcast_S_S4096x8192 (constant (F := Ideal) S_ .f32 0x00000000#32) i (fun a => a.elim0) (fun a => a.elim0)

/-- The reference's result is the specification. -/
theorem result_eq (x0 : (⟨S4096x8192, .i1⟩ : BufTy).Contents (Elt Ideal)) (x1 : (⟨S8192x8192, .i1⟩ : BufTy).Contents (Elt Ideal)) :
    result (F := Ideal) x0 x1 = spec x0 x1 := by
  funext i
  unfold result
  refine (cmpf_apply (F := Ideal) .ogt _ _ i).trans ?_
  rw [product_apply, zeros_apply]
  rfl

end Cert.ReferenceIdeal.RefValue

end
-- ==== Proof.Pieces.lean ====
/-
  What one run of the kernel body leaves behind, as values, in each of its three control cases — for any float
  instance.  The body keeps a running matrix of partial counts in a scratch buffer that persists from one grid point to
  the next.  With x the point's [1024, 2048] block of the first operand, w the point's block of the second, and acc
  what the scratch held on entry:

    first column tile of an output tile (case A):  the scratch is first reset to zeros and then receives
        step x w zeros,  where  step x w acc = acc + (bits of x) · (bits of w)ᵀ  is the body's one accumulation;
    a middle column tile (case B):                 the scratch receives  step x w acc;
    the last column tile (case C):                 the scratch receives  step x w acc,  and the output block receives
        the threshold of that new scratch: the word 1 where it is greater than zero, else 0.

  Each is the body's one covering store read back: a store of a whole block at offset zero leaves exactly its payload,
  and a load of a whole buffer (or of what an earlier covering store left) reads exactly those contents.
-/
import proofs.«165320_j51342039056576_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen
open Idealize.ShloMosaic Idealize.ShloMosaic.TcCoe Idealize.SL.Sem Idealize.ShloMosaic.Tactic

variable {F : FTy → Type} [FloatOps F]

/-- The offset of every access of the body: the origin. -/
theorem hz : (![0, 0] : Fin 2 → Nat) = fun _ => 0 := funext fun a => by fin_cases a <;> rfl

/-- A middle column tile: the scratch ends at the accumulation step over what it held. -/
theorem acc_B (c : Dev nD) (i : grid0.Coords) (arg3 : Memref sig .tc .vmem S1024x2048 .i32) (harg3 : arg3.IsWhole) (arg4 : Memref sig .tc .vmem S1024x2048 .i32) (harg4 : arg4.IsWhole) (arg5 : Memref sig .tc .vmem S1024x1024 .i32) (harg5 : arg5.IsWhole) (arg6 : Memref sig .tc .vmem S1024x1024 .f32) (harg6 : arg6.IsWhole) (hc0 : ¬cond0_0 i) (hc1 : ¬cond0_1 i)
    (x0 : Vec F S1024x2048 .i32) (x1 : Vec F S1024x2048 .i32) (xs0 : Vec F S1024x1024 .f32) :
    sout0_B_0 c i arg3 harg3 arg4 harg4 arg5 harg5 arg6 harg6 hc0 hc1 x0 x1 xs0 = k0_pay2 x0 x1 xs0 := by
  unfold sout0_B_0
  rw [View.read_writes_eq_canon _ _ _ (scover0_B_0 c i arg3 harg3 arg4 harg4 arg5 harg5 arg6 harg6 hc0 hc1 x0 x1 xs0)]
  unfold kernelRun0_B
  dsimp only
  rw [View.canon_unit_zero hz]
  simp only [View.readAt_eq_ld, harg3.read_unread, harg4.read_unread, harg6.read_unread,
    View.ld_unit_zero (S := S1024x2048) hz, View.ld_unit_zero (S := S1024x1024) hz]

/-- The first column tile: the scratch is reset, then ends at the accumulation step over the zeros. -/
theorem acc_A (c : Dev nD) (i : grid0.Coords) (arg3 : Memref sig .tc .vmem S1024x2048 .i32) (harg3 : arg3.IsWhole) (arg4 : Memref sig .tc .vmem S1024x2048 .i32) (harg4 : arg4.IsWhole) (arg5 : Memref sig .tc .vmem S1024x1024 .i32) (harg5 : arg5.IsWhole) (arg6 : Memref sig .tc .vmem S1024x1024 .f32) (harg6 : arg6.IsWhole) (hc0 : cond0_0 i) (hc1 : ¬cond0_1 i)
    (x0 : Vec F S1024x2048 .i32) (x1 : Vec F S1024x2048 .i32) :
    sout0_A_0 c i arg3 harg3 arg4 harg4 arg5 harg5 arg6 harg6 hc0 hc1 x0 x1 = k0_pay2 x0 x1 (k0_pay1 (F := F)) := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S1024x1024) hz, View.readCov_unit_zero (S := S1024x1024) _ hz]
  simp only [View.readAt_eq_ld, harg3.read_unread, harg4.read_unread,
    View.ld_unit_zero (S := S1024x2048) hz, View.ld_unit_zero (S := S1024x1024) hz]

/-- The last column tile: the scratch ends at the accumulation step over what it held … -/
theorem acc_C (c : Dev nD) (i : grid0.Coords) (arg3 : Memref sig .tc .vmem S1024x2048 .i32) (harg3 : arg3.IsWhole) (arg4 : Memref sig .tc .vmem S1024x2048 .i32) (harg4 : arg4.IsWhole) (arg5 : Memref sig .tc .vmem S1024x1024 .i32) (harg5 : arg5.IsWhole) (arg6 : Memref sig .tc .vmem S1024x1024 .f32) (harg6 : arg6.IsWhole) (hc0 : ¬cond0_0 i) (hc1 : cond0_1 i)
    (x0 : Vec F S1024x2048 .i32) (x1 : Vec F S1024x2048 .i32) (xs0 : Vec F S1024x1024 .f32) :
    sout0_C_0 c i arg3 harg3 arg4 harg4 arg5 harg5 arg6 harg6 hc0 hc1 x0 x1 xs0 = k0_pay2 x0 x1 xs0 := by
  unfold sout0_C_0
  rw [View.read_writes_eq_canon _ _ _ (scover0_C_0 c i arg3 harg3 arg4 harg4 arg5 harg5 arg6 harg6 hc0 hc1 x0 x1 xs0)]
  unfold kernelRun0_C
  dsimp only
  sl_unfold_words
  rw [View.canon_unit_zero hz]
  simp only [View.readAt_eq_ld, harg3.read_unread, harg4.read_unread, harg6.read_unread,
    View.ld_unit_zero (S := S1024x2048) hz, View.ld_unit_zero (S := S1024x1024) hz]

/-- … and the output block at the threshold of that new scratch. -/
theorem out_C (c : Dev nD) (i : grid0.Coords) (arg3 : Memref sig .tc .vmem S1024x2048 .i32) (harg3 : arg3.IsWhole) (arg4 : Memref sig .tc .vmem S1024x2048 .i32) (harg4 : arg4.IsWhole) (arg5 : Memref sig .tc .vmem S1024x1024 .i32) (harg5 : arg5.IsWhole) (arg6 : Memref sig .tc .vmem S1024x1024 .f32) (harg6 : arg6.IsWhole) (hc0 : ¬cond0_0 i) (hc1 : cond0_1 i)
    (x0 : Vec F S1024x2048 .i32) (x1 : Vec F S1024x2048 .i32) (xs0 : Vec F S1024x1024 .f32) :
    out0_C_2 c i arg3 harg3 arg4 harg4 arg5 harg5 arg6 harg6 hc0 hc1 x0 x1 xs0 = k0_pay3 (k0_pay2 x0 x1 xs0) := by
  unfold out0_C_2
  rw [View.read_writes_eq_canon _ _ _ (cover0_C_2 c i arg3 harg3 arg4 harg4 arg5 harg5 arg6 harg6 hc0 hc1 x0 x1 xs0)]
  unfold kernelRun0_C
  dsimp only
  sl_unfold_words
  rw [View.canon_unit_zero hz]
  simp only [View.readAt_eq_ld, harg3.read_unread, harg4.read_unread, harg6.read_unread,
    View.ld_unit_zero (S := S1024x2048) hz, View.ld_unit_zero (S := S1024x1024) hz,
    View.readCov_unit_zero (S := S1024x1024) _ hz]

end Cert.KernelIdeal.Pieces

end
-- ==== Proof.Cases.lean ====
/-
  What the scratch and the output's staging buffer hold after the body at grid point t, case by case, as values of the
  point's two input blocks and of what the scratch held after the point before — for any float instance.

  The grid is 4 × 8 × 4 with the column-tile axis last, so the points t with t mod 4 = 0 are the first column tile of an
  output tile, those with t mod 4 = 3 the last.  At a first tile the scratch ends at the accumulation step over zeros;
  at any other tile at the step over what the point before left; at a last tile the output block is the threshold of
  the scratch as it then stands.
-/
import proofs.«165320_j51342039056576_2_alg».proof.Proof.Pieces

noncomputable section

namespace Cert.KernelIdeal.Cases

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- A first column tile: the scratch ends at the step over zeros. -/
theorem scratch_first (c : Dev nD) (t : Fin cfg0.N) (h0 : t.val % 4 = 0) (h1 : ¬t.val % 4 = 3) :
    (outsAt0 m c t.val t.isLt).2 = k0_pay2 (iblk m c 0 t) (iblk m c 1 t) (k0_pay1 (F := F)) := by
  rw [outsAt0_A m c t h0 h1]
  dsimp only
  exact Pieces.acc_A c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)

/-- A middle column tile: the scratch ends at the step over what the point before left. -/
theorem scratch_middle (c : Dev nD) (t : Fin cfg0.N) (h0 : ¬t.val % 4 = 0) (h1 : ¬t.val % 4 = 3) :
    (outsAt0 m c t.val t.isLt).2 = k0_pay2 (iblk m c 0 t) (iblk m c 1 t) (outsAt0 m c (t.val - 1) (Nat.lt_of_le_of_lt (Nat.sub_le _ _) t.isLt)).2 := by
  rw [outsAt0_B m c t h0 h1]
  dsimp only
  exact Pieces.acc_B c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2

/-- A last column tile: the scratch likewise … -/
theorem scratch_last (c : Dev nD) (t : Fin cfg0.N) (h0 : ¬t.val % 4 = 0) (h1 : t.val % 4 = 3) :
    (outsAt0 m c t.val t.isLt).2 = k0_pay2 (iblk m c 0 t) (iblk m c 1 t) (outsAt0 m c (t.val - 1) (Nat.lt_of_le_of_lt (Nat.sub_le _ _) t.isLt)).2 := by
  rw [outsAt0_C m c t h0 h1]
  dsimp only
  exact Pieces.acc_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2

/-- … and the output block is the threshold of the scratch as it then stands. -/
theorem block_last (c : Dev nD) (t : Fin cfg0.N) (h0 : ¬t.val % 4 = 0) (h1 : t.val % 4 = 3) :
    (outsAt0 m c t.val t.isLt).1 = k0_pay3 (outsAt0 m c t.val t.isLt).2 := by
  rw [outsAt0_C m c t h0 h1]
  dsimp only
  exact (Pieces.out_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2).trans
    (congrArg k0_pay3 (Pieces.acc_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2).symm)

end Cert.KernelIdeal.Cases

end
-- ==== Proof.Blocks.lean ====
/-
  Where the windows' blocks sit, and what an input block holds.

  The grid is 4 × 8 × 4 in row-major order: point t has row-tile t / 32, output-column-tile (t / 4) mod 8 and
  contraction-tile t mod 4.  Window 0 (x, blocks [1024, 2048]) is at block (t / 32, t mod 4); window 1 (w, blocks
  [1024, 2048]) at ((t / 4) mod 8, t mod 4); window 2 (the result, blocks [1024, 1024]) at (t / 32, (t / 4) mod 8).
  These relations are decided once over the 128 points.

  A block's entry (p, r) is the array's entry (block row · 1024 + p, block column · 2048 + r).  The arrays the region
  stages are the two arguments widened from one bit to 32 by the host line before the region.
-/
import proofs.«165320_j51342039056576_2_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Blocks

open Cert.KernelIdeal Cert.KernelIdeal.Gen Cert.KernelIdeal.Facts₀
open Idealize.ShloMosaic Idealize.ShloMosaic.TcCoe Idealize.SL.Sem Idealize.ShloMosaic.ValueIdx

variable {F : FTy → Type} [FloatOps F]
variable (m : (ℓ : Loc nD τ sig) → Buf (Elt F) ℓ)

/-- The block each window is at, from the point's number. -/
theorem idx_facts : ∀ t : Fin cfg0.N,
    win0_0.index t (0 : Fin 2) = t.val / 32 ∧ win0_0.index t (1 : Fin 2) = t.val % 4
    ∧ win0_1.index t (0 : Fin 2) = t.val / 4 % 8 ∧ win0_1.index t (1 : Fin 2) = t.val % 4
    ∧ win0_2.index t (0 : Fin 2) = t.val / 32 ∧ win0_2.index t (1 : Fin 2) = t.val / 4 % 8 :=
  (by decide +kernel : ∀ t : Fin grid0.N,
    win0_0.index t (0 : Fin 2) = t.val / 32 ∧ win0_0.index t (1 : Fin 2) = t.val % 4
    ∧ win0_1.index t (0 : Fin 2) = t.val / 4 % 8 ∧ win0_1.index t (1 : Fin 2) = t.val % 4
    ∧ win0_2.index t (0 : Fin 2) = t.val / 32 ∧ win0_2.index t (1 : Fin 2) = t.val / 4 % 8)

/-- The x block at point t, at (p, r): the staged x at (1024 · (t / 32) + p, 2048 · (t mod 4) + r). -/
theorem xblock_apply (c : Dev nD) (t : Fin cfg0.N) (p : Fin 1024) (r : Fin 2048)
    (ha : 1024 * (t.val / 32) + p.val < 4096) (hb : 2048 * (t.val % 4) + r.val < 8192) :
    (iblk m c 0 t : Vec F S1024x2048 .i32) (ix2 p r)
      = (V m c main_v0 : S4096x8192.Idx → Elt F .i32) (ix2 ⟨1024 * (t.val / 32) + p.val, ha⟩ ⟨2048 * (t.val % 4) + r.val, hb⟩) := by
  obtain ⟨h00, h01, -, -, -, -⟩ := idx_facts t
  unfold iblk
  rw [View.read_apply]
  show V m c main_v0 _ = V m c main_v0 _
  congr 1
  funext a
  apply Fin.ext
  match a with
  | ⟨0, _⟩ => show win0_0.index t (0 : Fin 2) * 1024 + 1 * p.val = 1024 * (t.val / 32) + p.val; rw [h00]; omega
  | ⟨1, _⟩ => show win0_0.index t (1 : Fin 2) * 2048 + 1 * r.val = 2048 * (t.val % 4) + r.val; rw [h01]; omega

/-- The w block at point t, at (q, r): the staged w at (1024 · ((t / 4) mod 8) + q, 2048 · (t mod 4) + r). -/
theorem wblock_apply (c : Dev nD) (t : Fin cfg0.N) (q : Fin 1024) (r : Fin 2048)
    (ha : 1024 * (t.val / 4 % 8) + q.val < 8192) (hb : 2048 * (t.val % 4) + r.val < 8192) :
    (iblk m c 1 t : Vec F S1024x2048 .i32) (ix2 q r)
      = (V m c main_v1 : S8192x8192.Idx → Elt F .i32) (ix2 ⟨1024 * (t.val / 4 % 8) + q.val, ha⟩ ⟨2048 * (t.val % 4) + r.val, hb⟩) := by
  obtain ⟨-, -, h10, h11, -, -⟩ := idx_facts t
  unfold iblk
  rw [View.read_apply]
  show V m c main_v1 _ = V m c main_v1 _
  congr 1
  funext a
  apply Fin.ext
  match a with
  | ⟨0, _⟩ => show win0_1.index t (0 : Fin 2) * 1024 + 1 * q.val = 1024 * (t.val / 4 % 8) + q.val; rw [h10]; omega
  | ⟨1, _⟩ => show win0_1.index t (1 : Fin 2) * 2048 + 1 * r.val = 2048 * (t.val % 4) + r.val; rw [h11]; omega

/-- The staged x is the first argument widened to 32 bits … -/
theorem staged_x (c : Dev nD) :
    (V m c main_v0 : S4096x8192.Idx → Elt F .i32) = extui 32 (m ((c : Thread nD τ).loc main_arg0)) Facts₀.natLt_1_32 := by
  show StableHlo.after hostOps0 (fun b => m (c, b)) (Proc.devRef .tc main_v0) = _
  after_results

/-- … and the staged w the second. -/
theorem staged_w (c : Dev nD) :
    (V m c main_v1 : S8192x8192.Idx → Elt F .i32) = extui 32 (m ((c : Thread nD τ).loc main_arg1)) Facts₀.natLt_1_32 := by
  show StableHlo.after hostOps0 (fun b => m (c, b)) (Proc.devRef .tc main_v1) = _
  after_results

end Cert.KernelIdeal.Blocks

end
-- ==== Proof.Payload.lean ====
/-
  The body's three stored values read at an index, at the exact instance.

  A staged operand element is a 32-bit word v.  The body turns it into a float by "v ≠ 0" (a one-bit word), widened
  to 32 bits, read as a signed integer, converted to f32 and then narrowed to bf16; at the exact instance the two
  changes of float format are the identity and the integer is read exactly, so the float is the real number
  wordBit v below (0 or 1).

  The accumulation step at (p, q): the matrix unit multiplies the [1024, 2048] block of x-floats by the [1024, 2048]
  block of w-floats contracting the second axis of BOTH, into a zero accumulator, which at the exact instance is the
  plain sum over r < 2048 of xfloat(p, r) · wfloat(q, r); the body adds that to the scratch's entry.
  The threshold at (p, q): the ordered comparison "entry > 0" as a one-bit word, widened to 32 bits.
  The reset: the zero word, which is the real 0.
-/
import proofs.«165320_j51342039056576_2_alg».proof.Proof.Gen.KernelIdeal.Skeleton
import proofs.«165320_j51342039056576_2_alg».proof.Proof.CountSpec
import Idealize.ShloMosaic.Lib.Pipeline.Value
import Idealize.ShloMosaic.Lib.ValueIdx
import Idealize.ShloMosaic.PureOps.Ideal.Laws

noncomputable section

open scoped BigOperators

namespace Cert.KernelIdeal.Payload

open Cert.KernelIdeal Cert.KernelIdeal.Gen Cert.CountSpec
open Idealize.ShloMosaic Idealize.ShloMosaic.TcCoe Idealize.ShloMosaic.ValueIdx

/-- A staged 32-bit word as the float the body makes of it: "v ≠ 0", widened, read as a signed integer. -/
def wordBit (v : BitVec 32) : EReal := ((((IntOp.cmpi .ne v 0#32).setWidth 32).toInt : ℝ) : EReal)

/-- Of a widened one-bit word it is the bit as a real. -/
theorem wordBit_widen (b : BitVec 1) : wordBit (b.setWidth 32) = bitR b := signed_of_ne_zero_widen b

/-- The matrix unit's operand indices at output index (p, q) and contraction index k: the left block is read at (p, k),
    the right block at (q, k). -/
theorem lhs0 (j : S1024x1024.Idx) (k : dot_S1024x2048_S1024x2048_S1024x1024_1_1_0_0_n_n.contr.Idx) : (dot_S1024x2048_S1024x2048_S1024x1024_1_1_0_0_n_n.lhsIdx j k 0).val = (j 0).val := by
  unfold DotDims.lhsIdx
  rw [dif_neg (show ¬(0 : Fin S1024x2048.rank) ∈ dot_S1024x2048_S1024x2048_S1024x1024_1_1_0_0_n_n.lhsBatch by decide), dif_pos (show (0 : Fin S1024x2048.rank) ∈ dot_S1024x2048_S1024x2048_S1024x1024_1_1_0_0_n_n.lhsNonContracting by decide)]
  rfl
theorem lhs1 (j : S1024x1024.Idx) (k : dot_S1024x2048_S1024x2048_S1024x1024_1_1_0_0_n_n.contr.Idx) : (dot_S1024x2048_S1024x2048_S1024x1024_1_1_0_0_n_n.lhsIdx j k 1).val = (k ⟨0, by decide⟩).val :=
  dot_S1024x2048_S1024x2048_S1024x1024_1_1_0_0_n_n.lhsIdx_val_of_single rfl j k
theorem rhs0 (j : S1024x1024.Idx) (k : dot_S1024x2048_S1024x2048_S1024x1024_1_1_0_0_n_n.contr.Idx) : (dot_S1024x2048_S1024x2048_S1024x1024_1_1_0_0_n_n.rhsIdx j k 0).val = (j 1).val := by
  unfold DotDims.rhsIdx
  rw [dif_neg (show ¬(0 : Fin S1024x2048.rank) ∈ dot_S1024x2048_S1024x2048_S1024x1024_1_1_0_0_n_n.rhsBatch by decide), dif_pos (show (0 : Fin S1024x2048.rank) ∈ dot_S1024x2048_S1024x2048_S1024x1024_1_1_0_0_n_n.rhsNonContracting by decide)]
  rfl
theorem rhs1 (j : S1024x1024.Idx) (k : dot_S1024x2048_S1024x2048_S1024x1024_1_1_0_0_n_n.contr.Idx) : (dot_S1024x2048_S1024x2048_S1024x1024_1_1_0_0_n_n.rhsIdx j k 1).val = (k ⟨0, by decide⟩).val :=
  dot_S1024x2048_S1024x2048_S1024x1024_1_1_0_0_n_n.rhsIdx_val_of_single rfl j k

/-- The accumulation step at (p, q): the scratch's entry plus the tile's sum of products of bits. -/
theorem step_apply (x0 x1 : Vec Ideal S1024x2048 .i32) (acc : Vec Ideal S1024x1024 .f32) (p q : Fin 1024) :
    k0_pay2 (F := Ideal) x0 x1 acc (ix2 p q)
      = acc (ix2 p q) + ∑ r : Fin 2048, wordBit (x0 (ix2 p r)) * wordBit (x1 (ix2 q r)) := by
  unfold k0_pay2
  simp only [shapeCast_self]
  refine congrArg (acc (ix2 p q) + ·) ?_
  refine (Ideal.matmul_constant_zero_apply dot_S1024x2048_S1024x2048_S1024x1024_1_1_0_0_n_n none _ _ (ix2 p q)).trans ?_
  rw [← Equiv.sum_comp (contrEquiv1 dot_S1024x2048_S1024x2048_S1024x1024_1_1_0_0_n_n 2048 rfl rfl).symm]
  refine Finset.sum_congr rfl fun r _ => ?_
  have hr := contrEquiv1_symm_val dot_S1024x2048_S1024x2048_S1024x1024_1_1_0_0_n_n 2048 rfl rfl r
  have el : dot_S1024x2048_S1024x2048_S1024x1024_1_1_0_0_n_n.lhsIdx (ix2 p q) ((contrEquiv1 dot_S1024x2048_S1024x2048_S1024x1024_1_1_0_0_n_n 2048 rfl rfl).symm r) = ix2 p r :=
    funext fun a => Fin.ext (by
      match a with
      | ⟨0, _⟩ => exact lhs0 _ _
      | ⟨1, _⟩ => exact (lhs1 _ _).trans hr)
  have er : dot_S1024x2048_S1024x2048_S1024x1024_1_1_0_0_n_n.rhsIdx (ix2 p q) ((contrEquiv1 dot_S1024x2048_S1024x2048_S1024x1024_1_1_0_0_n_n 2048 rfl rfl).symm r) = ix2 q r :=
    funext fun a => Fin.ext (by
      match a with
      | ⟨0, _⟩ => exact rhs0 _ _
      | ⟨1, _⟩ => exact (rhs1 _ _).trans hr)
  rw [el, er]
  rfl

/-- The threshold at an index: the comparison "entry > 0", widened to 32 bits. -/
theorem threshold_apply (acc : Vec Ideal S1024x1024 .f32) (j : S1024x1024.Idx) :
    k0_pay3 (F := Ideal) acc j = (Ideal.cmp .ogt (acc j) (Ideal.ofBits .f32 0x00000000#32)).setWidth 32 := rfl

/-- The reset stores the real 0 everywhere. -/
theorem reset_apply (j : S1024x1024.Idx) : k0_pay1 (F := Ideal) j = 0 := by
  unfold k0_pay1
  simp only [shapeCast_self]
  exact Ideal.ofBits_zero_f32

end Cert.KernelIdeal.Payload

end
-- ==== Proof.Accumulate.lean ====
/-
  The accumulation across grid points, at the exact instance.

  Write X, W for the two argument arrays as launched (one-bit words).  At point t, with row tile i = t / 32, output
  column tile j = (t / 4) mod 8 and contraction tile k = t mod 4, the matrix unit's contribution at (p, q) is the sum
  over r < 2048 of the bit X(1024 i + p, 2048 k + r) times the bit W(1024 j + q, 2048 k + r): the staged arrays are the
  arguments widened to 32 bits, and the body's conversion of a widened bit is the bit as a real.

  So the scratch after point t holds, at (p, q), the count of common ones of row 1024 i + p of X and row 1024 j + q of
  W over the first 2048 (k + 1) columns — by induction on the point: a first tile (k = 0) resets to 0 and adds columns
  [0, 2048); every other tile adds columns [2048 k, 2048 (k + 1)) to what the point before left, and the point before
  has the same i and j and contraction tile k - 1.  Only 0 + s = s and the splitting of a range of summation are used:
  no entry needs to be finite.

  At a last tile (k = 3) the count is over all 8192 columns and the output block holds the specification's result
  word, widened to 32 bits.
-/
import proofs.«165320_j51342039056576_2_alg».proof.Proof.Cases
import proofs.«165320_j51342039056576_2_alg».proof.Proof.Blocks
import proofs.«165320_j51342039056576_2_alg».proof.Proof.Payload

noncomputable section

open scoped BigOperators

namespace Cert.KernelIdeal.Accumulate

open Cert.KernelIdeal Cert.KernelIdeal.Gen Cert.KernelIdeal.Payload
open Cert.CountSpec (SX SW bitR xbit wbit spec count_add)
open Idealize.ShloMosaic Idealize.ShloMosaic.TcCoe Idealize.SL.Sem Idealize.ShloMosaic.ValueIdx

variable (m : (ℓ : Loc nD τ sig) → Buf (Elt Ideal) ℓ)

/-- The two arguments as launched. -/
abbrev argX (c : Dev nD) : SX.Idx → BitVec 1 := m ((c : Thread nD τ).loc main_arg0)
abbrev argW (c : Dev nD) : SW.Idx → BitVec 1 := m ((c : Thread nD τ).loc main_arg1)

/-- Adding the next 2048 columns to the count over the first 2048 k. -/
theorem count_step (X : SX.Idx → BitVec 1) (W : SW.Idx → BitVec 1) (a b k : ℕ) :
    CountSpec.count X W a b (2048 * k) + ∑ r ∈ Finset.range 2048, xbit X a (2048 * k + r) * wbit W b (2048 * k + r)
      = CountSpec.count X W a b (2048 * (k + 1)) := by
  rw [mul_add_one]
  exact (count_add X W a b (2048 * k) 2048).symm

/-- The count over no columns is 0. -/
theorem count_zero (X : SX.Idx → BitVec 1) (W : SW.Idx → BitVec 1) (a b : ℕ) : CountSpec.count X W a b (2048 * 0) = 0 := by
  simp [CountSpec.count]

/-- The matrix unit's contribution at point t, at (p, q), in terms of the arguments. -/
theorem tile_sum (c : Dev nD) (t : Fin cfg0.N) (p q : Fin 1024) :
    ∑ r : Fin 2048, wordBit ((iblk m c 0 t : Vec Ideal S1024x2048 .i32) (ix2 p r)) * wordBit ((iblk m c 1 t : Vec Ideal S1024x2048 .i32) (ix2 q r))
      = ∑ r ∈ Finset.range 2048, xbit (argX m c) (1024 * (t.val / 32) + p.val) (2048 * (t.val % 4) + r)
          * wbit (argW m c) (1024 * (t.val / 4 % 8) + q.val) (2048 * (t.val % 4) + r) := by
  have hN : t.val < 128 := lt_of_lt_of_eq t.isLt N_0
  rw [← Fin.sum_univ_eq_sum_range (fun r => xbit (argX m c) (1024 * (t.val / 32) + p.val) (2048 * (t.val % 4) + r)
          * wbit (argW m c) (1024 * (t.val / 4 % 8) + q.val) (2048 * (t.val % 4) + r)) 2048]
  refine Finset.sum_congr rfl fun r _ => ?_
  have ha : 1024 * (t.val / 32) + p.val < 4096 := by have := p.isLt; omega
  have hb : 2048 * (t.val % 4) + r.val < 8192 := by have := r.isLt; omega
  have ha' : 1024 * (t.val / 4 % 8) + q.val < 8192 := by have := q.isLt; omega
  unfold xbit wbit
  rw [dif_pos ⟨ha, hb⟩, dif_pos ⟨ha', hb⟩]
  rw [Blocks.xblock_apply m c t p r ha hb, Blocks.wblock_apply m c t q r ha' hb, Blocks.staged_x, Blocks.staged_w]
  show wordBit ((argX m c (ix2 ⟨1024 * (t.val / 32) + p.val, ha⟩ ⟨2048 * (t.val % 4) + r.val, hb⟩)).setWidth 32)
      * wordBit ((argW m c (ix2 ⟨1024 * (t.val / 4 % 8) + q.val, ha'⟩ ⟨2048 * (t.val % 4) + r.val, hb⟩)).setWidth 32) = _
  rw [wordBit_widen, wordBit_widen]

/-- The accumulation step at point t over any scratch contents, at (p, q). -/
theorem step_count (c : Dev nD) (t : Fin cfg0.N) (acc : Vec Ideal S1024x1024 .f32) (p q : Fin 1024) :
    k0_pay2 (F := Ideal) (iblk m c 0 t) (iblk m c 1 t) acc (ix2 p q)
      = acc (ix2 p q) + ∑ r ∈ Finset.range 2048, xbit (argX m c) (1024 * (t.val / 32) + p.val) (2048 * (t.val % 4) + r)
          * wbit (argW m c) (1024 * (t.val / 4 % 8) + q.val) (2048 * (t.val % 4) + r) :=
  (step_apply (iblk m c 0 t) (iblk m c 1 t) acc p q).trans (congrArg (acc (ix2 p q) + ·) (tile_sum m c t p q))

/-- The scratch after point n: the count over the first 2048 (n mod 4 + 1) columns. -/
theorem scratch_eq (c : Dev nD) : ∀ (n : ℕ) (hn : n < cfg0.N) (p q : Fin 1024),
    (outsAt0 m c n hn).2 (ix2 p q)
      = CountSpec.count (argX m c) (argW m c) (1024 * (n / 32) + p.val) (1024 * (n / 4 % 8) + q.val) (2048 * (n % 4 + 1)) := by
  intro n
  induction n using Nat.strong_induction_on with
  | _ n ih =>
    intro hn p q
    have hN : n < 128 := lt_of_lt_of_eq hn N_0
    by_cases h0 : n % 4 = 0
    · have h1 : ¬n % 4 = 3 := by omega
      refine (congrFun (Cases.scratch_first m c ⟨n, hn⟩ h0 h1) (ix2 p q)).trans ?_
      refine (step_count m c ⟨n, hn⟩ _ p q).trans ?_
      dsimp only
      rw [reset_apply, ← count_step (argX m c) (argW m c) _ _ (n % 4), h0, count_zero]
    · have hp := ih (n - 1) (by omega) (Nat.lt_of_le_of_lt (Nat.sub_le _ _) hn) p q
      have e1 : (n - 1) / 32 = n / 32 := by omega
      have e2 : (n - 1) / 4 % 8 = n / 4 % 8 := by omega
      have e3 : (n - 1) % 4 + 1 = n % 4 := by omega
      rw [e1, e2, e3] at hp
      by_cases h1 : n % 4 = 3
      · refine (congrFun (Cases.scratch_last m c ⟨n, hn⟩ h0 h1) (ix2 p q)).trans ?_
        refine (step_count m c ⟨n, hn⟩ _ p q).trans ?_
        dsimp only
        refine (congrArg (· + _) hp).trans ?_
        exact count_step (argX m c) (argW m c) _ _ (n % 4)
      · refine (congrFun (Cases.scratch_middle m c ⟨n, hn⟩ h0 h1) (ix2 p q)).trans ?_
        refine (step_count m c ⟨n, hn⟩ _ p q).trans ?_
        dsimp only
        refine (congrArg (· + _) hp).trans ?_
        exact count_step (argX m c) (argW m c) _ _ (n % 4)

/-- At a last tile the output block holds the specification's result word, widened to 32 bits. -/
theorem block_eq (c : Dev nD) (t : Fin cfg0.N) (h1 : t.val % 4 = 3) (p q : Fin 1024)
    (ha : 1024 * (t.val / 32) + p.val < 4096) (hb : 1024 * (t.val / 4 % 8) + q.val < 8192) :
    (outsAt0 m c t.val t.isLt).1 (ix2 p q)
      = (spec (argX m c) (argW m c) (ix2 ⟨1024 * (t.val / 32) + p.val, ha⟩ ⟨1024 * (t.val / 4 % 8) + q.val, hb⟩)).setWidth 32 := by
  have h0 : ¬t.val % 4 = 0 := by omega
  refine (congrFun (Cases.block_last m c t h0 h1) (ix2 p q)).trans ?_
  refine (threshold_apply _ (ix2 p q)).trans ?_
  rw [scratch_eq m c t.val t.isLt p q, h1]
  rfl

end Cert.KernelIdeal.Accumulate

end
-- ==== Proof.ResultArray.lean ====
/-
  The array the region writes.  The output is written back at the last contraction tile of each output tile (the 32
  points t with t mod 4 = 3), one [1024, 1024] block at block position (t / 32, (t / 4) mod 8).  What is written back at
  such a point is the block of ONE whole-array function: the specification's result word at each index, widened to
  32 bits.  The 4 × 8 blocks tile the [4096, 8192] array — index (a, b) lies in the block of the point
  32 (a / 1024) + 4 (b / 1024) + 3 — so after the run the array holds that function everywhere.
-/
import proofs.«165320_j51342039056576_2_alg».proof.Proof.Accumulate

noncomputable section

namespace Cert.KernelIdeal.ResultArray

open Cert.KernelIdeal Cert.KernelIdeal.Gen Cert.KernelIdeal.Accumulate
open Cert.CountSpec (SX SW spec)
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The region's result array: the specification's result word, widened to 32 bits. -/
def widened (c : Dev nD) : S4096x8192.Idx → BitVec 32 := fun i => (spec (argX m c) (argW m c) i).setWidth 32

/-- The array index of entry j of the output block of point t. -/
def outIdx (t : Fin cfg0.N) (j : S1024x1024.Idx) : S4096x8192.Idx :=
  ix2 ⟨1024 * (t.val / 32) + (j 0).val, by
        have h0 := idx2_lt0 j; have hN := lt_of_lt_of_eq t.isLt (show cfg0.N = 128 from N_0); omega⟩
      ⟨1024 * (t.val / 4 % 8) + (j 1).val, by have h1 := idx2_lt1 j; omega⟩

/-- At a last tile the output's staging buffer holds the widened result words of its block. -/
theorem block_fun (c : Dev nD) (t : Fin cfg0.N) (h1 : t.val % 4 = 3) :
    ((outsAt0 m c t.val t.isLt).1 : Vec Ideal S1024x1024 .i32) = fun j : S1024x1024.Idx => widened m c (outIdx t j) := by
  funext j
  obtain ⟨p, q, rfl⟩ : ∃ (p : Fin 1024) (q : Fin 1024), j = ix2 p q := ⟨j 0, j 1, eq_ix2 j⟩
  exact block_eq m c t h1 p q _ _

/-- What a flushing point writes back is its block of the widened result. -/
theorem flushed_eq (c : Dev nD) (t : Fin cfg0.N) (hf : (cfg0.win 2).flush t = true) :
    (dats m 0 c).flushed 2 t = ((cfg0.win 2).blk t).view.read (Elt Ideal) (widened m c) := by
  have h1 : t.val % 4 = 3 := (flush0_2 t).mp hf
  obtain ⟨-, -, -, -, h20, h21⟩ := Blocks.idx_facts t
  show (cfg0.win 2).cut (grid0.coords t) ((dats m 0 c).after 2 t) = _
  rw [after0_2, block_fun m c t h1]
  funext j
  show widened m c (outIdx t j) = widened m c (((cfg0.win 2).blk t).view.emb j)
  congr 1
  funext a; apply Fin.ext
  match a with
  | ⟨0, _⟩ => show 1024 * (t.val / 32) + (j 0).val = win0_2.index t (0 : Fin 2) * 1024 + 1 * (j 0).val; rw [h20]; omega
  | ⟨1, _⟩ => show 1024 * (t.val / 4 % 8) + (j 1).val = win0_2.index t (1 : Fin 2) * 1024 + 1 * (j 1).val; rw [h21]; omega

/-- An index of the array is in point t's block iff each coordinate is in the block's range on its axis. -/
theorem mem_blk (t : Fin cfg0.N) (i : S4096x8192.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v2).slice (win0_2.rect t)).set ↔ _
  rw [View.set_slice_whole, Rect.mem_set_unit]
  exact Iff.rfl

/-- Every index of the array is in the block of some flushing point. -/
theorem cover (i : S4096x8192.Idx) : ∃ t : Fin cfg0.N, (cfg0.win 2).flush t = true ∧ i ∈ ((cfg0.win 2).blk t).view.set := by
  have hi0 : (i 0).val < 4096 := idx2_lt0 i
  have hi1 : (i 1).val < 8192 := idx2_lt1 i
  have hN : cfg0.N = 128 := N_0
  have hlt : 32 * ((i 0).val / 1024) + 4 * ((i 1).val / 1024) + 3 < cfg0.N := by rw [hN]; omega
  obtain ⟨-, -, -, -, h20, h21⟩ := Blocks.idx_facts ⟨32 * ((i 0).val / 1024) + 4 * ((i 1).val / 1024) + 3, hlt⟩
  refine ⟨⟨32 * ((i 0).val / 1024) + 4 * ((i 1).val / 1024) + 3, hlt⟩, (flush0_2 _).mpr (by dsimp only; omega), ?_⟩
  rw [mem_blk]
  dsimp only at h20 h21
  intro a
  match a with
  | ⟨0, _⟩ =>
    show win0_2.index ⟨32 * ((i 0).val / 1024) + 4 * ((i 1).val / 1024) + 3, hlt⟩ (0 : Fin 2) * 1024 ≤ (i 0).val
      ∧ (i 0).val < win0_2.index ⟨32 * ((i 0).val / 1024) + 4 * ((i 1).val / 1024) + 3, hlt⟩ (0 : Fin 2) * 1024 + 1024
    rw [h20]; omega
  | ⟨1, _⟩ =>
    show win0_2.index ⟨32 * ((i 0).val / 1024) + 4 * ((i 1).val / 1024) + 3, hlt⟩ (1 : Fin 2) * 1024 ≤ (i 1).val
      ∧ (i 1).val < win0_2.index ⟨32 * ((i 0).val / 1024) + 4 * ((i 1).val / 1024) + 3, hlt⟩ (1 : Fin 2) * 1024 + 1024
    rw [h21]; omega

/-- The region's result array after the run. -/
theorem final (c : Dev nD) : (dats m 0 c).arrAt 2 cfg0.N = widened m c :=
  (dats m 0 c).arrAt_eq_of_cover 2 (widened m c) (flushed_eq m c) (fun i => cover i)

end Cert.KernelIdeal.ResultArray

end
-- ==== Proof.KernelRun.lean ====
/-
  The kernel program's run, read: its result is the specification.

  After the region, @main compares the region's result array with zero, "not equal", and passes the one-bit result
  on unchanged.  The region's array holds the specification's result word widened to 32 bits, and a widened one-bit
  word is nonzero exactly when the word is 1; so the program's result is the specification's result word itself.
  The two argument arrays end as launched (no operation writes them).
-/
import proofs.«165320_j51342039056576_2_alg».proof.Proof.ResultArray
import Idealize.ShloMosaic.Lib.StableHlo.Run

noncomputable section

namespace Cert.KernelIdeal.KernelRun

open Cert.KernelIdeal Cert.KernelIdeal.Gen Cert.KernelIdeal.Accumulate Cert.KernelIdeal.ResultArray
open Cert.CountSpec (SX SW spec)
open Idealize.ShloMosaic Idealize.ShloMosaic.TcCoe Idealize.SL.Sem Idealize.ShloMosaic.ValueIdx

variable (m : (ℓ : Loc nD τ sig) → Buf (Elt Ideal) ℓ) (ρ : Dev nD → PrngReg)

/-- The zero word spread over the result's shape reads 0 everywhere. -/
theorem zero_spread (i : S4096x8192.Idx) :
    (broadcastInDim S4096x8192 ![] Facts₀.bcast_S_S4096x8192 (constantI S_ 32 0#32) : S4096x8192.Idx → BitVec 32) i = 0#32 :=
  broadcastInDim_apply _ Facts₀.bcast_S_S4096x8192 (constantI S_ 32 0#32) i (fun a => a.elim0) (fun a => a.elim0)

/-- The program's result after the lines that follow the region: the specification. -/
theorem tail_eq (c : Dev nD) :
    Pipeline.afterTail₀ cfgs (dats m) 0 (V0 m) [hostOps1] c main_v5 = spec (argX m c) (argW m c) := by
  unfold Pipeline.afterTail₀
  show StableHlo.after hostOps1 _ (Proc.devRef .tc main_v5) = _
  after_results
  have hw : (Pipeline.withArrays (cfgs 0).spec c (V0 m c) (fun w => (dats m 0 c).arrAt w (cfgs 0).N) (Proc.devRef .tc main_v2) : S4096x8192.Idx → BitVec 32)
      = widened m c :=
    (Pipeline.withArrays_arr spec0 launch0.win.arr_inj c _ _ 2).trans (final m c)
  funext i
  show IntOp.cmpi .ne ((Pipeline.withArrays (cfgs 0).spec c (V0 m c) (fun w => (dats m 0 c).arrAt w (cfgs 0).N) (Proc.devRef .tc main_v2) : S4096x8192.Idx → BitVec 32) i)
      ((broadcastInDim S4096x8192 ![] Facts₀.bcast_S_S4096x8192 (constantI S_ 32 0#32) : S4096x8192.Idx → BitVec 32) i) = _
  rw [hw, zero_spread]
  exact Cert.CountSpec.ne_zero_widen _

/-- Every weakly fair execution of the kernel program terminates with the result at the specification of the
    arguments as launched, and the arguments unchanged. -/
theorem run : θ_run defs (onTc (τ := τ) (main (F := Ideal))) ⟨m, fun _ => 0, ρ⟩ fun r => ∀ c : Dev nD,
      r.2.mem ((c.tc : Thread nD τ).loc main_v5) = spec (argX m c) (argW m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v5 (Pipeline.mem_restRefs_of main_v5 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.KernelRun

end
-- ==== Proof.lean ====
/-
  The boolean matrix product  out(a, b) = OR over j of (x(a, j) AND w(b, j))  for x : [4096, 8192] and w : [8192, 8192]
  one-bit arrays, computed by a tiled kernel and by a dense reference, are the same function over the extended reals.

  Both compute "count > 0", where count(a, b) is the number of columns j at which row a of x and row b of w both hold 1,
  written as the sum over j < 8192 of the product of the two bits read as the reals 0 and 1.

  The reference reads each bit as an unsigned integer converted to a float, transposes w, takes the matrix product
  (at the exact instance a plain sum over the contracted axis) and compares with zero.

  The kernel first widens both arrays to 32-bit words.  For each [1024, 1024] output tile it walks the four column
  tiles of width 2048 in order, keeping a running matrix in a scratch buffer: zero at the first tile, then at every
  tile the matrix unit's product of the two blocks' bits (a block word v becomes the float of the signed integer
  "v ≠ 0", with two changes of float format that are the identity at the exact instance) added to the running
  matrix; at the fourth tile it stores the comparison "running > 0", widened to 32 bits, and after the kernel the
  program compares that word with zero, "not equal", giving back the one-bit word.

  The two sides meet because (i) a widened one-bit word is nonzero exactly when the bit is 1, and read as a signed
  integer it is the bit read as an unsigned one; (ii) the running matrix after k + 1 column tiles is the count over the
  first 2048 (k + 1) columns, so after four tiles it is the full count: 0 + s = s and the splitting of a range of
  summation, which hold for all extended reals — no finiteness is needed, and none is assumed (the inputs are one-bit
  words).

  Modules: CountSpec (the specification and the one-bit facts), RefRun and RefValue (the reference's run and that it
  computes the specification), Pieces and Cases (what the kernel body leaves at a grid point, case by case), Payload
  (the body's stored values at an index), Blocks (where the windows' blocks sit), Accumulate (the induction over grid
  points), ResultArray (the blocks written back tile the result), KernelRun (the lines after the kernel; the kernel
  program's run).  The frame statements of the two kernel programs are the generated frame theorems; the
  reference's frame is its run with the result forgotten.  No rewrite was applied in idealizing the kernel, so that
  conjunct is trivial.
-/
import proofs.«165320_j51342039056576_2_alg».proof.Defs
import proofs.«165320_j51342039056576_2_alg».proof.Proof.Gen.Kernel
import proofs.«165320_j51342039056576_2_alg».proof.Proof.Gen.Kernel.Frame
import proofs.«165320_j51342039056576_2_alg».proof.Proof.Gen.KernelIdeal
import proofs.«165320_j51342039056576_2_alg».proof.Proof.Gen.KernelIdeal.Frame
import proofs.«165320_j51342039056576_2_alg».proof.Proof.Gen.ReferenceIdeal
import proofs.«165320_j51342039056576_2_alg».proof.Proof.RefValue
import proofs.«165320_j51342039056576_2_alg».proof.Proof.KernelRun
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does the kernel program read at the exact instance. -/
theorem frame_kernel_ideal : Cert.frame_KernelIdeal := fun m ρ _ => Cert.KernelIdeal.Gen.frame m ρ

/-- The reference runs and leaves its arguments unchanged: its run with the result forgotten. -/
theorem frame_reference : Cert.frame_ReferenceIdeal := fun m ρ _ =>
  (θ_run Cert.ReferenceIdeal.defs _ _).mono (fun _ h c => (h c).2) (Cert.ReferenceIdeal.RefRun.run (F := Ideal) m ρ)

/-- Idealizing the kernel rewrote nothing. -/
theorem preserves : Cert.preserves_Kernel_KernelIdeal := trivial

/-- From memories that agree on the two arguments, the kernel program and the reference both end with the
    specification of the arguments as their result. -/
theorem algebraic : Cert.algebraic_KernelIdeal_ReferenceIdeal := by
  intro m ρ m' ρ' _ hagree
  refine ⟨fun c => Cert.CountSpec.spec (Cert.KernelIdeal.Accumulate.argX m c) (Cert.KernelIdeal.Accumulate.argW m c),
    Cert.KernelIdeal.KernelRun.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2]
  exact Cert.ReferenceIdeal.RefValue.result_eq _ _

theorem claim : Cert.Claim :=
  ⟨Cert.Kernel.Gen.facts, Cert.KernelIdeal.Gen.facts, Cert.ReferenceIdeal.Gen.facts,
    frame_kernel, frame_kernel_ideal, frame_reference, preserves, algebraic⟩

end Cert.Proof

end
